-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S63x4096 : S_.BroadcastsInDim S63x4096 (![] : Fin 0 → Fin S63x4096.rank)
  reducesTo_S63x4096_S_d0_1 : S63x4096.ReducesTo [0, 1] S_
  bcast_S_S4096x63 : S_.BroadcastsInDim S4096x63 (![] : Fin 0 → Fin S4096x63.rank)
  reducesTo_S4096x63_S_d0_1 : S4096x63.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S4096x63 .f32) (main_arg5 : FVec F S6 .f32) (main_arg6 : FVec F S6 .f32) (main_v13 : IVec S_ 1) (main_v16 : IVec S63x4096 1) : IVec S_ 1 :=
  let main_c_5 : IVec S_ 1 := constantI S_ 1 1#1
  let main_v17 : IVec S_ 1 := (fun x v => Host.reduce IntOp.andi x v reducesTo_S63x4096_S_d0_1 h_S_) main_v16 main_c_5
  let main_v18 : IVec S_ 1 := andi main_v13 main_v17
  let main_v19 : FVec F S4096x63 .f32 := Host.absf main_arg4
  let main_cst_6 : FVec F S_ .f32 := constant S_ .f32 0x7F800000#32
  let main_v20 : FVec F S4096x63 .f32 := broadcastInDim S4096x63 ![] bcast_S_S4096x63 main_cst_6
  let main_v21 : IVec S4096x63 1 := cmpf .olt main_v19 main_v20
  let main_c_7 : IVec S_ 1 := constantI S_ 1 1#1
  let main_v22 : IVec S_ 1 := (fun x v => Host.reduce IntOp.andi x v reducesTo_S4096x63_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S63x4096 .f32) (main_arg4 : FVec F S4096x63 .f32) (main_arg5 : FVec F S6 .f32) (main_arg6 : FVec F S6 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S63x4096 .f32 := Host.absf main_arg3
  let main_cst_4 : FVec F S_ .f32 := constant S_ .f32 0x7F800000#32
  let main_v15 : FVec F S63x4096 .f32 := broadcastInDim S63x4096 ![] bcast_S_S63x4096 main_cst_4
  let main_v16 : IVec S63x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S63 : Shape := ⟨1, ![63]⟩
abbrev S_ : Shape := ⟨0, ![]⟩
abbrev S63x1 : Shape := ⟨2, ![63, 1]⟩
abbrev S8192x4096 : Shape := ⟨2, ![8192, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 27
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S63x4096, .f32⟩
  | .hbm, ⟨4, _⟩ => ⟨S4096x63, .f32⟩
  | .hbm, ⟨5, _⟩ => ⟨S6, .f32⟩
  | .hbm, ⟨6, _⟩ => ⟨S6, .f32⟩
  | .hbm, ⟨7, _⟩ => ⟨S63, .i32⟩
  | .hbm, ⟨8, _⟩ => ⟨S63, .i1⟩
  | .hbm, ⟨9, _⟩ => ⟨S6, .f32⟩
  | .hbm, ⟨10, _⟩ => ⟨S_, .i32⟩
  | .hbm, ⟨11, _⟩ => ⟨S63, .i32⟩
  | .hbm, ⟨12, _⟩ => ⟨S63, .i32⟩
  | .hbm, ⟨13, _⟩ => ⟨S63, .i32⟩
  | .hbm, ⟨14, _⟩ => ⟨S63x1, .i32⟩
  | .hbm, ⟨15, _⟩ => ⟨S63, .f32⟩
  | .hbm, ⟨16, _⟩ => ⟨S63x1, .f32⟩
  | .hbm, ⟨17, _⟩ => ⟨S63x4096, .f32⟩
  | .hbm, ⟨18, _⟩ => ⟨S63x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S63 : S_.BroadcastsInDim S63 (![] : Fin 0 → Fin S63.rank)
  bcast_S63_S63x1_0 : S63.BroadcastsInDim S63x1 (![0] : Fin 1 → Fin S63x1.rank)
  bcast_S63x1_S63x4096_0_1 : S63x1.BroadcastsInDim S63x4096 (![0, 1] : Fin 2 → Fin S63x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S6_S63x1_S63_n_0_n_n_0_1_1_wf : GatherDims.WF S6 S63x1 S63 [] [0] [] [0] [] 1 ![1]
  dot_S63x4096_S4096x63_S4096x4096_0_1_1_0_n_n_wf : DotDims.WF S63x4096 S4096x63 S4096x4096 [0] [1] [1] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S6_S63x1_S63_n_0_n_n_0_1_1 : GatherDims S6 S63x1 S63 where
  offsetDims := []
  collapsedSliceDims := [0]
  operandBatchingDims := []
  startIndicesBatchingDims := []
  startIndexMap := [0]
  indexVectorDim := 1
  sliceSizes := ![1]
  wf := gather_S6_S63x1_S63_n_0_n_n_0_1_1_wf
def dot_S63x4096_S4096x63_S4096x4096_0_1_1_0_n_n : DotDims S63x4096 S4096x63 S4096x4096 where
  lhsContracting := [0]
  rhsContracting := [1]
  lhsNonContracting := [1]
  rhsNonContracting := [0]
  lhsBatch := []
  rhsBatch := []
  wf := dot_S63x4096_S4096x63_S4096x4096_0_1_1_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v13) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S63 : Shape := ⟨1, ![63]⟩
abbrev S1x1x4096 : Shape := ⟨3, ![1, 1, 4096]⟩
abbrev S_ : Shape := ⟨0, ![]⟩
abbrev S63x1 : Shape := ⟨2, ![63, 1]⟩
abbrev S4x2048x63 : Shape := ⟨3, ![4, 2048, 63]⟩
abbrev S1x1x63 : Shape := ⟨3, ![1, 1, 63]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S63x4096, .f32⟩
  | .hbm, ⟨4, _⟩ => ⟨S4096x63, .f32⟩
  | .hbm, ⟨5, _⟩ => ⟨S6, .f32⟩
  | .hbm, ⟨6, _⟩ => ⟨S6, .f32⟩
  | .hbm, ⟨7, _⟩ => ⟨S63, .i32⟩
  | .hbm, ⟨8, _⟩ => ⟨S63, .i1⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S6, .f32⟩
  | .hbm, ⟨14, _⟩ => ⟨S_, .i32⟩
  | .hbm, ⟨15, _⟩ => ⟨S63, .i32⟩
  | .hbm, ⟨16, _⟩ => ⟨S63, .i32⟩
  | .hbm, ⟨17, _⟩ => ⟨S63, .i32⟩
  | .hbm, ⟨18, _⟩ => ⟨S63x1, .i32⟩
  | .hbm, ⟨19, _⟩ => ⟨S63, .f32⟩
  | .hbm, ⟨20, _⟩ => ⟨S4x2048x63, .f32⟩
  | .hbm, ⟨21, _⟩ => ⟨S1x1x63, .f32⟩
  | .hbm, ⟨22, _⟩ => ⟨S4x2048x63, .f32⟩
  | .hbm, ⟨23, _⟩ => ⟨S4x2048x63, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S63 : S_.BroadcastsInDim S63 (![] : Fin 0 → Fin S63.rank)
  bcast_S63_S63x1_0 : S63.BroadcastsInDim S63x1 (![0] : Fin 1 → Fin S63x1.rank)
  bcast_S63_S1x1x63_2 : S63.BroadcastsInDim S1x1x63 (![2] : Fin 1 → Fin S1x1x63.rank)
  bcast_S1x1x63_S4x2048x63_0_1_2 : S1x1x63.BroadcastsInDim S4x2048x63 (![0, 1, 2] : Fin 3 → Fin S4x2048x63.rank)
  dot_S4x2048x4096_S4096x4096_S4x2048x4096_2_1_01_0_n_n_wf : DotDims.WF S4x2048x4096 S4096x4096 S4x2048x4096 [2] [1] [0, 1] [0] [] []
  gather_S6_S63x1_S63_n_0_n_n_0_1_1_wf : GatherDims.WF S6 S63x1 S63 [] [0] [] [0] [] 1 ![1]
  dot_S4x2048x4096_S63x4096_S4x2048x63_2_1_01_0_n_n_wf : DotDims.WF S4x2048x4096 S63x4096 S4x2048x63 [2] [1] [0, 1] [0] [] []
  dot_S4x2048x63_S4096x63_S4x2048x4096_2_1_01_0_n_n_wf : DotDims.WF S4x2048x63 S4096x63 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def gather_S6_S63x1_S63_n_0_n_n_0_1_1 : GatherDims S6 S63x1 S63 where
  offsetDims := []
  collapsedSliceDims := [0]
  operandBatchingDims := []
  startIndicesBatchingDims := []
  startIndexMap := [0]
  indexVectorDim := 1
  sliceSizes := ![1]
  wf := gather_S6_S63x1_S63_n_0_n_n_0_1_1_wf
def dot_S4x2048x4096_S63x4096_S4x2048x63_2_1_01_0_n_n : DotDims S4x2048x4096 S63x4096 S4x2048x63 where
  lhsContracting := [2]
  rhsContracting := [1]
  lhsNonContracting := [0, 1]
  rhsNonContracting := [0]
  lhsBatch := []
  rhsBatch := []
  wf := dot_S4x2048x4096_S63x4096_S4x2048x63_2_1_01_0_n_n_wf
def dot_S4x2048x63_S4096x63_S4x2048x4096_2_1_01_0_n_n : DotDims S4x2048x63 S4096x63 S4x2048x4096 where
  lhsContracting := [2]
  rhsContracting := [1]
  lhsNonContracting := [0, 1]
  rhsNonContracting := [0]
  lhsBatch := []
  rhsBatch := []
  wf := dot_S4x2048x63_S4096x63_S4x2048x4096_2_1_01_0_n_n_wf

class Facts : Prop extends Facts₀ where

variable [Facts]
-- ==== Proof.KerCases.lean ====
/-
  What one run of the body leaves behind, case by case, as values.

  The body has three cases along the contraction axis of the grid.  At the first step it clears the accumulator and
  adds the step's block product: the accumulator ends at zeros + x·w.  At a middle step the accumulator, holding acc,
  ends at acc + x·w.  At the last step it ends at acc + x·w as well, and the output block receives that sum plus the
  bias row.  Each is the payload of the case's one covering store, its loads reading the whole buffers.
-/
import proofs.«101486_j86208583566010_2_alg».proof.Proof.Gen.KernelIdeal.Frame
import Idealize.ShloMosaic.Lib.Pipeline.Value
import Idealize.ShloMosaic.Lib.Tactic

noncomputable section

namespace Cert.KerSide

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- Middle steps: the accumulator holding `xs` ends at `xs + x0·x1`. -/
theorem acc_mid (c : Dev nD) (i : grid0.Coords) (a3 : Memref sig .tc .vmem S1024x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 : Vec F S1024x512 .f32) (x1 : Vec F S512x1024 .bf16) (x2 : Vec F S1x1024 .f32)
    (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h5.read_unread, h7.read_unread, View.ld_unit_zero (S := S1024x512) hz,
    View.ld_unit_zero (S := S512x1024) hz, View.ld_unit_zero (S := S1x1024) hz, View.ld_unit_zero (S := S1024x1024) hz]

/-- The last step: the accumulator holding `xs` ends at `xs + x0·x1`. -/
theorem acc_last (c : Dev nD) (i : grid0.Coords) (a3 : Memref sig .tc .vmem S1024x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x512 .f32) (x1 : Vec F S512x1024 .bf16) (x2 : Vec F S1x1024 .f32)
    (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread, View.ld_unit_zero (S := S1024x512) hz,
    View.ld_unit_zero (S := S512x1024) hz, View.ld_unit_zero (S := S1x1024) hz, View.ld_unit_zero (S := S1024x1024) hz]

/-- The last step: the output block receives the new accumulator plus the bias row. -/
theorem out_last (c : Dev nD) (i : grid0.Coords) (a3 : Memref sig .tc .vmem S1024x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x512 .f32) (x1 : Vec F S512x1024 .bf16) (x2 : Vec F S1x1024 .f32)
    (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x512) hz,
    View.ld_unit_zero (S := S512x1024) hz, View.ld_unit_zero (S := S1x1024) hz, View.ld_unit_zero (S := S1024x1024) hz]

/-- The first step: the accumulator is cleared and ends at `zeros + x0·x1`. -/
theorem acc_first (c : Dev nD) (i : grid0.Coords) (a3 : Memref sig .tc .vmem S1024x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 : Vec F S1024x512 .f32) (x1 : Vec F S512x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x512) hz,
    View.ld_unit_zero (S := S512x1024) hz, View.ld_unit_zero (S := S1x1024) hz, View.ld_unit_zero (S := S1024x1024) hz]

end Cert.KerSide

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KerPay.lean ====
/-
  The body's three stored values, read at an entry over the extended reals.

  The body keeps a [1024, 1024] accumulator.  At the first step of a run along the contraction axis it stores
  zeros; at every step it adds the product of the current [1024, 512] block of the input rows with the current
  [512, 1024] block of the merged weight; at the last step it adds the bias row and stores the result.
  Entry by entry:
      zeros[p, q]            = 0
      (acc + x·w)[p, q]      = acc[p, q] + Σ_{k < 512} x[p, k] · w[k, q]
      (acc + bias)[p, q]     = acc[p, q] + bias[0, q].
  A change of float format (the rounding of the input block to bf16) is the identity on extended reals.
-/
import proofs.«101486_j86208583566010_2_alg».proof.Proof.Gen.KernelIdeal.Skeleton
import proofs.«101486_j86208583566010_2_alg».proof.Proof.LibMatmulNN
import Idealize.ShloMosaic.Lib.ValueLayout
import Idealize.ShloMosaic.Lib.Pipeline.Value

noncomputable section

namespace Cert.KerSide

open Idealize.ShloMosaic Idealize.ShloMosaic.ValueIdx Cert.KernelIdeal Cert.KernelIdeal.Gen

/-- The zero block has the entry 0 everywhere. -/
theorem zeros_apply (p q : Fin 1024) : k0_pay1 (F := Ideal) (ix2 p q) = 0 := by
  unfold k0_pay1
  rw [shapeCast_self]
  exact Ideal.ofBits_zero_f32

/-- The block product's dimension record is the plain [1024, 512] by [512, 1024] one. -/
theorem dot_plain : dot_S1024x512_S512x1024_S1024x1024_1_0_0_1_n_n = DotDims.plain 1024 512 1024 := rfl

/-- One accumulation step at entry (p, q): the old entry plus row p of the input block times column q of the
    weight block. -/
theorem step_apply (x : Vec Ideal S1024x512 .f32) (w : Vec Ideal S512x1024 .bf16) (acc : Vec Ideal S1024x1024 .f32)
    (p q : Fin 1024) :
    k0_pay2 x w acc (ix2 p q) = acc (ix2 p q) + ∑ k : Fin 512, x (ix2 p k) * w (ix2 k q) := by
  unfold k0_pay2
  rw [shapeCast_self, shapeCast_self, shapeCast_self]
  show acc (ix2 p q) + _ = _
  refine congrArg (acc (ix2 p q) + ·) ?_
  exact Cert.MatmulNN.matmul_zero_apply _ dot_plain none _ _ p q

/-- The closing step at entry (p, q): the accumulator's entry plus the bias row's entry q. -/
theorem close_apply (acc : Vec Ideal S1024x1024 .f32) (b : Vec Ideal S1x1024 .f32) (p q : Fin 1024) :
    k0_pay3 acc b (ix2 p q) = acc (ix2 p q) + b (ix2 (0 : Fin 1) q) := by
  unfold k0_pay3
  rw [shapeCast_self]
  show acc (ix2 p q) + _ = _
  refine congrArg (acc (ix2 p q) + ·) ?_
  exact broadcastTo_1b_ab_apply _ _ p q

end Cert.KerSide

end
-- ==== Proof.KerAcc.lean ====
/-
  The accumulator along a run of the contraction axis.

  The grid has 8·4·8 points, the last coordinate moving fastest; point n has contraction step n mod 8.  After point n
  the accumulator holds the ordered chain
      (((zeros + P(n₀)) + P(n₀+1)) + … ) + P(n),        n₀ = n − n mod 8,
  where P(t) is the product of point t's input block with its weight block.  Entry by entry this is the sum
  Σ_{j ≤ n mod 8} P(n₀ + j)[p, q] over the extended reals (addition there is associative and commutative, and
  0 + a = a).  At the last step of a run the output block receives the accumulator plus the bias row.
-/
import proofs.«101486_j86208583566010_2_alg».proof.Proof.KerCases
import proofs.«101486_j86208583566010_2_alg».proof.Proof.KerPay

noncomputable section

namespace Cert.KerSide

open Idealize.ShloMosaic Idealize.ShloMosaic.TcCoe Idealize.ShloMosaic.ValueIdx Idealize.SL.Sem Cert.KernelIdeal Cert.KernelIdeal.Gen

section chain

variable {F : FTy → Type} [FloatOps F]
variable (m : (ℓ : Loc nD τ sig) → Buf (Elt F) ℓ)

/-- Point t's block of the input rows, of the merged weight, and of the bias row. -/
abbrev xblk (c : Dev nD) (t : Fin cfg0.N) : Vec F S1024x512 .f32 := iblk m c 0 t
abbrev wblk (c : Dev nD) (t : Fin cfg0.N) : Vec F S512x1024 .bf16 := iblk m c 1 t
abbrev bblk (c : Dev nD) (t : Fin cfg0.N) : Vec F S1x1024 .f32 := iblk m c 2 t

/-- The accumulator after point n: cleared at the first step of a run, one step added at every point. -/
def accAt (c : Dev nD) : (n : ℕ) → n < cfg0.N → Vec F S1024x1024 .f32
  | 0, h => k0_pay2 (xblk m c ⟨0, h⟩) (wblk m c ⟨0, h⟩) (k0_pay1 (F := F))
  | n + 1, h =>
    if (n + 1) % 8 = 0 then k0_pay2 (xblk m c ⟨n + 1, h⟩) (wblk m c ⟨n + 1, h⟩) (k0_pay1 (F := F))
    else k0_pay2 (xblk m c ⟨n + 1, h⟩) (wblk m c ⟨n + 1, h⟩) (accAt c n (Nat.lt_of_succ_lt h))

/-- At the first step of a run the accumulator ends at zeros plus the point's block product. -/
theorem scratch_first (c : Dev nD) (t : Fin cfg0.N) (h0 : t.val % 8 = 0) (h1 : ¬t.val % 8 = 7) :
    (outsAt0 m c t.val t.isLt).2 = k0_pay2 (xblk m c t) (wblk m c t) (k0_pay1 (F := F)) := by
  rw [outsAt0_A m c t h0 h1]
  dsimp only
  exact acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a middle step it ends at what the point before left plus the point's block product. -/
theorem scratch_mid (c : Dev nD) (t : Fin cfg0.N) (h0 : ¬t.val % 8 = 0) (h1 : ¬t.val % 8 = 7) :
    (outsAt0 m c t.val t.isLt).2 = k0_pay2 (xblk m c t) (wblk m c t) (outsAt0 m c (t.val - 1) (Nat.lt_of_le_of_lt (Nat.sub_le _ _) t.isLt)).2 := by
  rw [outsAt0_B m c t h0 h1]
  dsimp only
  exact acc_mid c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last step likewise, -/
theorem scratch_last (c : Dev nD) (t : Fin cfg0.N) (h0 : ¬t.val % 8 = 0) (h1 : t.val % 8 = 7) :
    (outsAt0 m c t.val t.isLt).2 = k0_pay2 (xblk m c t) (wblk m c t) (outsAt0 m c (t.val - 1) (Nat.lt_of_le_of_lt (Nat.sub_le _ _) t.isLt)).2 := by
  rw [outsAt0_C m c t h0 h1]
  dsimp only
  exact acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block receives that plus the bias row. -/
theorem out_lastpt (c : Dev nD) (t : Fin cfg0.N) (h0 : ¬t.val % 8 = 0) (h1 : t.val % 8 = 7) :
    (outsAt0 m c t.val t.isLt).1 = k0_pay3 (k0_pay2 (xblk m c t) (wblk m c t) (outsAt0 m c (t.val - 1) (Nat.lt_of_le_of_lt (Nat.sub_le _ _) t.isLt)).2) (bblk m c t) := by
  rw [outsAt0_C m c t h0 h1]
  dsimp only
  exact out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- What the carried accumulator holds after point n is that chain: by induction on the point. -/
theorem scratch_eq (c : Dev nD) : ∀ (n : ℕ) (h : n < cfg0.N), (outsAt0 m c n h).2 = accAt m c n h
  | 0, h => scratch_first m c ⟨0, h⟩ rfl (fun h7 => by dsimp only at h7; omega)
  | n + 1, h => by
    by_cases h0 : (n + 1) % 8 = 0
    · have h1 : ¬(n + 1) % 8 = 7 := by omega
      refine (scratch_first m c ⟨n + 1, h⟩ h0 h1).trans ?_
      simp only [accAt, if_pos h0]
    · have ih := scratch_eq c n (Nat.lt_of_succ_lt h)
      by_cases h1 : (n + 1) % 8 = 7
      · refine (scratch_last m c ⟨n + 1, h⟩ h0 h1).trans ?_
        simp only [accAt, if_neg h0]
        exact congrArg (k0_pay2 (xblk m c ⟨n + 1, h⟩) (wblk m c ⟨n + 1, h⟩)) ih
      · refine (scratch_mid m c ⟨n + 1, h⟩ h0 h1).trans ?_
        simp only [accAt, if_neg h0]
        exact congrArg (k0_pay2 (xblk m c ⟨n + 1, h⟩) (wblk m c ⟨n + 1, h⟩)) ih

/-- At the last step of a run the output block holds the accumulator plus the bias row. -/
theorem out_eq (c : Dev nD) : ∀ (n : ℕ) (h : n < cfg0.N), n % 8 = 7 →
    (outsAt0 m c n h).1 = k0_pay3 (accAt m c n h) (bblk m c ⟨n, h⟩)
  | 0, h, h7 => absurd h7 (by decide)
  | n + 1, h, h7 => by
    have h0 : ¬(n + 1) % 8 = 0 := by omega
    refine (out_lastpt m c ⟨n + 1, h⟩ h0 h7).trans ?_
    simp only [accAt, if_neg h0]
    exact congrArg (fun a => k0_pay3 (k0_pay2 (xblk m c ⟨n + 1, h⟩) (wblk m c ⟨n + 1, h⟩) a) (bblk m c ⟨n + 1, h⟩))
      (scratch_eq m c n (Nat.lt_of_succ_lt h))

end chain

section entries

variable (m : (ℓ : Loc nD τ sig) → Buf (Elt Ideal) ℓ)

/-- Entry (p, q) of the product of point n's input block with its weight block (0 past the grid). -/
def blockProd (c : Dev nD) (n : ℕ) (p q : Fin 1024) : EReal :=
  if h : n < cfg0.N then ∑ k : Fin 512, xblk m c ⟨n, h⟩ (ix2 p k) * wblk m c ⟨n, h⟩ (ix2 k q) else 0

theorem blockProd_of_lt (c : Dev nD) (n : ℕ) (h : n < cfg0.N) (p q : Fin 1024) :
    blockProd m c n p q = ∑ k : Fin 512, xblk m c ⟨n, h⟩ (ix2 p k) * wblk m c ⟨n, h⟩ (ix2 k q) := dif_pos h

/-- The accumulator's entry after point n: the block products of the run's steps so far, summed. -/
theorem accAt_apply (c : Dev nD) (p q : Fin 1024) : ∀ (n : ℕ) (h : n < cfg0.N),
    accAt m c n h (ix2 p q) = ∑ j ∈ Finset.range (n % 8 + 1), blockProd m c (n - n % 8 + j) p q
  | 0, h => by
    show k0_pay2 _ _ _ (ix2 p q) = _
    refine (step_apply _ _ _ p q).trans ?_
    rw [zeros_apply, zero_add, ← blockProd_of_lt m c 0 h p q]
    simp
  | n + 1, h => by
    by_cases h0 : (n + 1) % 8 = 0
    · simp only [accAt, if_pos h0]
      refine (step_apply _ _ _ p q).trans ?_
      rw [zeros_apply, zero_add, ← blockProd_of_lt m c (n + 1) h p q, h0]
      simp
    · simp only [accAt, if_neg h0]
      refine (step_apply _ _ _ p q).trans ?_
      rw [accAt_apply c p q n, ← blockProd_of_lt m c (n + 1) h p q]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

end entries

end Cert.KerSide

end
-- ==== Proof.KerBlocks.lean ====
/-
  A window's block read at an entry is an entry of the array behind the window.

  The grid has 8·4·8 points, the last coordinate moving fastest: point t has coordinates (t / 32, t / 8 mod 4, t mod 8).
  The input rows are cut into [1024, 512] blocks indexed by (t / 32, t mod 8), the merged weight into [512, 1024] blocks
  indexed by (t mod 8, t / 8 mod 4), the bias row into [1, 1024] blocks indexed by (0, t / 8 mod 4), and the output into
  [1024, 1024] blocks indexed by (t / 32, t / 8 mod 4).  An element of a block sits in its array, on each axis, at the
  block index times the block's extent plus its own coordinate.  Matrix entries are written with natural-number
  coordinates (0 outside the matrix), so that two positions are compared by arithmetic alone.
-/
import proofs.«101486_j86208583566010_2_alg».proof.Proof.KerAcc

noncomputable section

namespace Cert.KerSide

open Idealize.ShloMosaic Idealize.ShloMosaic.TcCoe Idealize.ShloMosaic.ValueIdx Idealize.SL.Sem Cert.KernelIdeal Cert.KernelIdeal.Gen

/-- Entry (r, s) of a matrix by natural-number coordinates; 0 outside the matrix. -/
def at2 {a b : ℕ} (X : (⟨2, ![a, b]⟩ : Shape).Idx → EReal) (r s : ℕ) : EReal :=
  if h : r < a ∧ s < b then X (ix2 ⟨r, h.1⟩ ⟨s, h.2⟩) else 0

theorem at2_ix2 {a b : ℕ} (X : (⟨2, ![a, b]⟩ : Shape).Idx → EReal) (i : Fin a) (j : Fin b) :
    at2 X i.val j.val = X (ix2 i j) := dif_pos ⟨i.isLt, j.isLt⟩

theorem at2_idx {a b : ℕ} (X : (⟨2, ![a, b]⟩ : Shape).Idx → EReal) (i : (⟨2, ![a, b]⟩ : Shape).Idx) :
    X i = at2 X (i 0).val (i 1).val := by
  rw [eq_ix2 i]
  exact (at2_ix2 X (i 0) (i 1)).symm

/-- The block indices of the four windows at point t. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

variable (m : (ℓ : Loc nD τ sig) → Buf (Elt Ideal) ℓ)

/-- The three arrays behind the input windows, as the region finds them: the flattened input rows, the merged weight,
    the bias as a one-row matrix. -/
abbrev rowsArr (c : Dev nD) : S8192x4096.Idx → EReal := V m c main_v13
abbrev weightArr (c : Dev nD) : S4096x4096.Idx → EReal := V m c main_v12
abbrev biasArr (c : Dev nD) : S1x4096.Idx → EReal := V m c main_v14

/-- Entry (p, k) of point t's block of the input rows. -/
theorem xblk_apply (c : Dev nD) (t : Fin cfg0.N) (p : Fin 1024) (k : Fin 512) :
    xblk m c t (ix2 p k) = at2 (rowsArr m c) (1024 * (t.val / 32) + p.val) (512 * (t.val % 8) + k.val) := by
  obtain ⟨e0, e1, -⟩ := idx_facts t
  unfold xblk iblk
  rw [View.read_apply]
  show rowsArr m c (((cfg0.win 0).blk t).view.emb (ix2 p k)) = _
  rw [at2_idx (rowsArr m c)]
  refine congrArg₂ (at2 (rowsArr m c)) ?_ ?_
  · show win0_0.index t (0 : Fin 2) * 1024 + 1 * p.val = _
    rw [e0]; omega
  · show win0_0.index t (1 : Fin 2) * 512 + 1 * k.val = _
    rw [e1]; omega

/-- Entry (k, q) of point t's block of the merged weight. -/
theorem wblk_apply (c : Dev nD) (t : Fin cfg0.N) (k : Fin 512) (q : Fin 1024) :
    wblk m c t (ix2 k q) = at2 (weightArr m c) (512 * (t.val % 8) + k.val) (1024 * (t.val / 8 % 4) + q.val) := by
  obtain ⟨-, -, e0, e1, -⟩ := idx_facts t
  unfold wblk iblk
  rw [View.read_apply]
  show weightArr m c (((cfg0.win 1).blk t).view.emb (ix2 k q)) = _
  rw [at2_idx (weightArr m c)]
  refine congrArg₂ (at2 (weightArr m c)) ?_ ?_
  · show win0_1.index t (0 : Fin 2) * 512 + 1 * k.val = _
    rw [e0]; omega
  · show win0_1.index t (1 : Fin 2) * 1024 + 1 * q.val = _
    rw [e1]; omega

/-- Entry (0, q) of point t's block of the bias row. -/
theorem bblk_apply (c : Dev nD) (t : Fin cfg0.N) (q : Fin 1024) :
    bblk m c t (ix2 (0 : Fin 1) q) = at2 (biasArr m c) 0 (1024 * (t.val / 8 % 4) + q.val) := by
  obtain ⟨-, -, -, -, e0, e1, -⟩ := idx_facts t
  unfold bblk iblk
  rw [View.read_apply]
  show biasArr m c (((cfg0.win 2).blk t).view.emb (ix2 (0 : Fin 1) q)) = _
  rw [at2_idx (biasArr m c)]
  refine congrArg₂ (at2 (biasArr m c)) ?_ ?_
  · show win0_2.index t (0 : Fin 2) * 1 + 1 * 0 = _
    rw [e0]
  · show win0_2.index t (1 : Fin 2) * 1024 + 1 * q.val = _
    rw [e1]; omega

end Cert.KerSide

end
-- ==== Proof.KerFinal.lean ====
/-
  The output array after the region, and the program's result.

  Only the last step of each run along the contraction axis writes its output block back; the block of point t
  (t mod 8 = 7) lands at rows 1024·(t / 32) …, columns 1024·(t / 8 mod 4) …, and these 32 blocks tile the [8192, 4096]
  output.  So the output array ends as ONE function of the three arrays the region reads:
      out[r, o] = (Σ_{j < 8} Σ_{k < 512} rows[r, 512 j + k] · weight[512 j + k, o]) + bias[0, o].
  The one host operation after the region reshapes it to [4, 2048, 4096].
-/
import proofs.«101486_j86208583566010_2_alg».proof.Proof.KerBlocks
import Idealize.ShloMosaic.Lib.Pipeline.Value
import Idealize.ShloMosaic.Lib.StableHlo.Run

noncomputable section

namespace Cert.KerSide

open Idealize.ShloMosaic Idealize.ShloMosaic.TcCoe Idealize.ShloMosaic.ValueIdx Idealize.SL.Sem Cert.KernelIdeal Cert.KernelIdeal.Gen
open Idealize.ShloMosaic.Pipeline (Dat)

/-- The output array as a function of the flattened rows, the merged weight and the one-row bias. -/
def outArr (X2 : S8192x4096.Idx → EReal) (Wt : S4096x4096.Idx → EReal) (b2 : S1x4096.Idx → EReal) : S8192x4096.Idx → EReal :=
  fun i => (∑ j ∈ Finset.range 8, ∑ k : Fin 512, at2 X2 (i 0).val (512 * j + k.val) * at2 Wt (512 * j + k.val) (i 1).val)
    + at2 b2 0 (i 1).val

theorem outArr_apply (X2 : S8192x4096.Idx → EReal) (Wt : S4096x4096.Idx → EReal) (b2 : S1x4096.Idx → EReal) (i : S8192x4096.Idx) :
    outArr X2 Wt b2 i = (∑ j ∈ Finset.range 8, ∑ k : Fin 512, at2 X2 (i 0).val (512 * j + k.val) * at2 Wt (512 * j + k.val) (i 1).val)
      + at2 b2 0 (i 1).val := rfl

variable (m : (ℓ : Loc nD τ sig) → Buf (Elt Ideal) ℓ)

/-- Entry (p, q) of the block the last step of a run stores, in terms of the three arrays. -/
theorem out_entry (c : Dev nD) (t : Fin cfg0.N) (h7 : t.val % 8 = 7) (p q : Fin 1024) :
    k0_pay3 (accAt m c t.val t.isLt) (bblk m c t) (ix2 p q)
      = (∑ j ∈ Finset.range 8, ∑ k : Fin 512,
          at2 (rowsArr m c) (1024 * (t.val / 32) + p.val) (512 * j + k.val)
            * at2 (weightArr m c) (512 * j + k.val) (1024 * (t.val / 8 % 4) + q.val))
        + at2 (biasArr m c) 0 (1024 * (t.val / 8 % 4) + q.val) := by
  have hN : cfg0.N = 256 := N_0
  refine (close_apply _ _ p q).trans ?_
  rw [accAt_apply m c p q t.val t.isLt, bblk_apply m c t q, h7]
  refine congrArg (· + at2 (biasArr m c) 0 (1024 * (t.val / 8 % 4) + q.val)) (Finset.sum_congr rfl fun j hj => ?_)
  have hj8 : j < 8 := Finset.mem_range.mp hj
  have ht : t.val < 256 := hN ▸ t.isLt
  have hlt : t.val - 7 + j < cfg0.N := lt_of_lt_of_eq (by omega : t.val - 7 + j < 256) hN.symm
  rw [blockProd_of_lt m c _ hlt p q]
  refine Finset.sum_congr rfl fun k _ => ?_
  rw [xblk_apply, wblk_apply]
  have e1 : (t.val - 7 + j) / 32 = t.val / 32 := by omega
  have e2 : (t.val - 7 + j) % 8 = j := by omega
  have e3 : (t.val - 7 + j) / 8 % 4 = t.val / 8 % 4 := by omega
  dsimp only
  rw [e1, e2, e3]

/-- An index of the output array is in point t's block iff each coordinate is in the block's range on its axis. -/
theorem mem_blk3 (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v15).slice (win0_3.rect t)).set ↔ _
  rw [View.set_slice_whole, Rect.mem_set_unit]
  exact Iff.rfl

/-- What a writing point writes back is its block of the one function. -/
theorem flushed_eq (c : Dev nD) (t : Fin cfg0.N) (hf : (cfg0.win 3).flush t = true) :
    (dats m 0 c).flushed 3 t
      = ((cfg0.win 3).blk t).view.read (Elt Ideal) (outArr (rowsArr m c) (weightArr m c) (biasArr m c)) := by
  have h7 : t.val % 8 = 7 := (flush0_3 t).mp hf
  obtain ⟨-, -, -, -, -, -, e0, e1⟩ := idx_facts t
  show (cfg0.win 3).cut (grid0.coords t) ((dats m 0 c).after 3 t) = _
  rw [after0_3, out_eq m c t.val t.isLt h7]
  funext (y : S1024x1024.Idx)
  obtain ⟨p, q, rfl⟩ : ∃ (p q : Fin 1024), y = ix2 p q := ⟨y 0, y 1, eq_ix2 y⟩
  rw [View.read_apply]
  show k0_pay3 (accAt m c t.val t.isLt) (bblk m c t) (ix2 p q)
    = outArr (rowsArr m c) (weightArr m c) (biasArr m c) (((cfg0.win 3).blk t).view.emb (ix2 p q))
  have key : ∀ E : S8192x4096.Idx, (E 0).val = 1024 * (t.val / 32) + p.val → (E 1).val = 1024 * (t.val / 8 % 4) + q.val →
      k0_pay3 (accAt m c t.val t.isLt) (bblk m c t) (ix2 p q) = outArr (rowsArr m c) (weightArr m c) (biasArr m c) E := by
    intro E r0 r1
    rw [outArr_apply, r0, r1]
    exact out_entry m c t h7 p q
  refine key _ ?_ ?_
  · show win0_3.index t (0 : Fin 2) * 1024 + 1 * p.val = _
    rw [e0]; omega
  · show win0_3.index t (1 : Fin 2) * 1024 + 1 * q.val = _
    rw [e1]; omega

/-- Every index of the output array is in some writing point's block. -/
theorem covered (c : Dev nD) (i : S8192x4096.Idx) :
    ∃ t : Fin cfg0.N, (cfg0.win 3).flush t = true ∧ i ∈ ((cfg0.win 3).blk t).view.set := by
  have hN : cfg0.N = 256 := N_0
  have h0 : (i 0).val < 8192 := (i 0).isLt
  have h1 : (i 1).val < 4096 := (i 1).isLt
  obtain ⟨tv, htv⟩ : ∃ tv : ℕ, tv = ((i 0).val / 1024 * 4 + (i 1).val / 1024) * 8 + 7 := ⟨_, rfl⟩
  have hlt : tv < cfg0.N := by rw [hN]; omega
  obtain ⟨-, -, -, -, -, -, e0, e1⟩ := idx_facts ⟨tv, hlt⟩
  have e0' : win0_3.index ⟨tv, hlt⟩ (0 : Fin 2) = tv / 32 := e0
  have e1' : win0_3.index ⟨tv, hlt⟩ (1 : Fin 2) = tv / 8 % 4 := e1
  refine ⟨⟨tv, hlt⟩, (flush0_3 _).mpr (by show tv % 8 = 7; omega), ?_⟩
  rw [mem_blk3]
  intro a
  match a with
  | ⟨0, _⟩ =>
    show win0_3.index ⟨tv, hlt⟩ (0 : Fin 2) * 1024 ≤ (i 0).val ∧ (i 0).val < win0_3.index ⟨tv, hlt⟩ (0 : Fin 2) * 1024 + 1024
    rw [e0']; omega
  | ⟨1, _⟩ =>
    show win0_3.index ⟨tv, hlt⟩ (1 : Fin 2) * 1024 ≤ (i 1).val ∧ (i 1).val < win0_3.index ⟨tv, hlt⟩ (1 : Fin 2) * 1024 + 1024
    rw [e1']; omega

/-- So the output array ends holding the one function of the three arrays. -/
theorem final (c : Dev nD) :
    (dats m 0 c).arrAt 3 cfg0.N = outArr (rowsArr m c) (weightArr m c) (biasArr m c) :=
  (dats m 0 c).arrAt_eq_of_cover 3 (outArr (rowsArr m c) (weightArr m c) (biasArr m c))
    (fun t hf => flushed_eq m c t hf) (covered c)

/-- The program's result: the reshape after the region applied to it. -/
theorem tail_eq (c : Dev nD) :
    Pipeline.afterTail₀ cfgs (dats m) 0 (V0 m) [hostOps1] c main_v16
      = shapeCast S4x2048x4096 (outArr (rowsArr m c) (weightArr m c) (biasArr m c)) shapeCasts_S8192x4096_S4x2048x4096 := by
  unfold Pipeline.afterTail₀
  show StableHlo.after hostOps1 _ (Proc.devRef .tc main_v16) = _
  after_results
  refine congrArg (fun a => shapeCast S4x2048x4096 a shapeCasts_S8192x4096_S4x2048x4096) ?_
  exact (Pipeline.withArrays_arr spec0 launch0.win.arr_inj c _ _ 3).trans (final m c)

/-- The kernel program's run, read: the result at the reshaped output function, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v16)
          = shapeCast S4x2048x4096 (outArr (rowsArr m c) (weightArr m c) (biasArr m c)) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KerSide

end
-- ==== Proof.Spec.lean ====
/-
  The two programs as formulas over the extended reals.

  Notation: X[b,s,i] the input rows, W[o,i] the base weight, bias[o], A[r,i] and B[o,r] the low-rank factors,
  cb[r] the combined scale of rank row r.

  The reference computes, at (b, s, o),
      (Σ_i X[b,s,i]·W[o,i] + bias[o]) + Σ_r ((Σ_i X[b,s,i]·A[r,i])·cb[r])·B[o,r].
  The kernel first merges the low-rank branch into the weight,
      wt[i,o] = W[o,i] + Σ_r (A[r,i]·cb[r])·B[o,r],
  and then computes one product with the merged weight plus the bias:
      (Σ_i x[i]·wt[i,o]) + bias[o]            for the row x = X[b,s,·].
-/
import Idealize.ShloMosaic.Lib.ValueIdx

noncomputable section

namespace Cert.Spec

/-- The reference's value at (b, s, o). -/
def refAt (X : Fin 4 → Fin 2048 → Fin 4096 → EReal) (W : Fin 4096 → Fin 4096 → EReal) (bias : Fin 4096 → EReal)
    (A : Fin 63 → Fin 4096 → EReal) (B : Fin 4096 → Fin 63 → EReal) (cb : Fin 63 → EReal)
    (b : Fin 4) (s : Fin 2048) (o : Fin 4096) : EReal :=
  ((∑ i : Fin 4096, X b s i * W o i) + bias o)
    + ∑ r : Fin 63, ((∑ i : Fin 4096, X b s i * A r i) * cb r) * B o r

/-- The merged weight at (i, o): the transposed base weight plus the low-rank product. -/
def wt (W : Fin 4096 → Fin 4096 → EReal) (A : Fin 63 → Fin 4096 → EReal) (B : Fin 4096 → Fin 63 → EReal)
    (cb : Fin 63 → EReal) (i o : Fin 4096) : EReal :=
  W o i + ∑ r : Fin 63, (A r i * cb r) * B o r

/-- The kernel's value at output column o for one input row x: the product with the merged weight, plus the bias. -/
def kerAt (x : Fin 4096 → EReal) (W : Fin 4096 → Fin 4096 → EReal) (bias : Fin 4096 → EReal)
    (A : Fin 63 → Fin 4096 → EReal) (B : Fin 4096 → Fin 63 → EReal) (cb : Fin 63 → EReal) (o : Fin 4096) : EReal :=
  (∑ i : Fin 4096, x i * wt W A B cb i o) + bias o

end Cert.Spec

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.KerHost.lean ====
/-
  The arrays the region finds, as functions of the program's arguments.

  Before the region the host flattens the input rows [4, 2048, 4096] to [8192, 4096] (row b·2048 + s), views the bias
  as a one-row matrix, and merges the weight: with cb[r] the combined scale of rank row r (a gather of the product
  alphas · scalings at a constant table of segment numbers),
      weight[i, o] = W[o, i] + Σ_r (A[r, i] · cb[r]) · B[o, r],
  then rounds it to bf16, which is the identity on extended reals.
-/
import proofs.«101486_j86208583566010_2_alg».proof.Proof.KerBlocks
import proofs.«101486_j86208583566010_2_alg».proof.Proof.Spec
import proofs.«101486_j86208583566010_2_alg».proof.Proof.LibHostBroadcasts
import Idealize.ShloMosaic.Lib.StableHlo.Run
import Idealize.ShloMosaic.Lib.ValueLayout

noncomputable section

namespace Cert.KerSide

open Idealize.ShloMosaic Idealize.ShloMosaic.TcCoe Idealize.ShloMosaic.ValueIdx Idealize.SL.Sem Cert.KernelIdeal Cert.KernelIdeal.Gen

/-- The combined scale vector as the host operations compute it from alphas and scalings. -/
def comb (a5 a6 : FVec Ideal S6 .f32) : FVec Ideal S63 .f32 :=
  Host.gather gather_S6_S63x1_S63_n_0_n_n_0_1_1 (mulf a5 a6)
    (broadcastInDim S63x1 ![0] bcast_S63_S63x1_0
      (select (constantI S63 1 0#1)
        (addi (fun i => lit0 (S63.rowMajor i)) (broadcastInDim S63 ![] bcast_S_S63 (constantI S_ 32 6#32)))
        (fun i => lit0 (S63.rowMajor i))))

/-- The merged weight as the host operations compute it. -/
def mergedWeight (W : FVec Ideal S4096x4096 .f32) (A : FVec Ideal S63x4096 .f32) (B : FVec Ideal S4096x63 .f32)
    (cb : FVec Ideal S63 .f32) : FVec Ideal S4096x4096 .bf16 :=
  truncf .bf16
    (addf (transpose S4096x4096 [1, 0] W transposes_S4096x4096_S4096x4096_1_0)
      (Host.dotGeneral dot_S63x4096_S4096x63_S4096x4096_0_1_1_0_n_n none
        (mulf A (broadcastInDim S63x4096 ![0, 1] bcast_S63x1_S63x4096_0_1 (broadcastInDim S63x1 ![0] bcast_S63_S63x1_0 cb)))
        B))
    bitsLt_bf16_f32

section arrays

variable (m : (ℓ : Loc nD τ sig) → Buf (Elt Ideal) ℓ)

theorem rowsArr_eq (c : Dev nD) :
    rowsArr m c = shapeCast S8192x4096 (m ((c : Thread nD τ).loc main_arg0)) shapeCasts_S4x2048x4096_S8192x4096 := by
  show StableHlo.after hostOps0 (fun b => m (c, b)) (Proc.devRef .tc main_v13) = _
  after_results
  rfl

theorem biasArr_eq (c : Dev nD) :
    biasArr m c = shapeCast S1x4096 (m ((c : Thread nD τ).loc main_arg2)) shapeCasts_S4096_S1x4096 := by
  show StableHlo.after hostOps0 (fun b => m (c, b)) (Proc.devRef .tc main_v14) = _
  after_results
  rfl

theorem weightArr_eq (c : Dev nD) :
    weightArr m c = mergedWeight (m ((c : Thread nD τ).loc main_arg1)) (m ((c : Thread nD τ).loc main_arg3)) (m ((c : Thread nD τ).loc main_arg4))
      (comb (m ((c : Thread nD τ).loc main_arg5)) (m ((c : Thread nD τ).loc main_arg6))) := by
  show StableHlo.after hostOps0 (fun b => m (c, b)) (Proc.devRef .tc main_v12) = _
  after_results
  rfl

end arrays

/-! ## Entries -/

/-- The flattened rows: entry (r, i) is the input's entry (r / 2048, r mod 2048, i). -/
theorem rows_entry (X : FVec Ideal S4x2048x4096 .f32) (b : Fin 4) (s : Fin 2048) (i : Fin 4096) :
    at2 (shapeCast S8192x4096 X shapeCasts_S4x2048x4096_S8192x4096) (b.val * 2048 + s.val) i.val = X (ix3 b s i) := by
  have hr : b.val * 2048 + s.val < 8192 := by have := b.isLt; have := s.isLt; omega
  refine (at2_ix2 _ ⟨b.val * 2048 + s.val, hr⟩ i).trans ?_
  refine shapeCast_apply X _ _ (ix3 b s i) ?_
  rw [Shape.rowMajor_val_three, Shape.rowMajor_val_two]
  show (b.val * 2048 + s.val) * 4096 + i.val = (b.val * 2048 + s.val) * 4096 + i.val
  rfl

/-- The bias as a one-row matrix: entry (0, o) is the bias's entry o. -/
theorem bias_entry (bias : FVec Ideal S4096 .f32) (o : Fin 4096) :
    at2 (shapeCast S1x4096 bias shapeCasts_S4096_S1x4096) 0 o.val = bias (ix1 o) :=
  (at2_ix2 _ (0 : Fin 1) o).trans (shapeCast_a_1a_apply bias _ (0 : Fin 1) o)

/-- The low-rank product's left operand index at output (i, o) and contraction position r is (r, i). -/
theorem lowrank_lhsIdx (i o : Fin 4096) (r : Fin 63) :
    dot_S63x4096_S4096x63_S4096x4096_0_1_1_0_n_n.lhsIdx (ix2 i o)
      ((contrEquiv1 dot_S63x4096_S4096x63_S4096x4096_0_1_1_0_n_n 63 rfl rfl).symm r) = ix2 r i :=
  funext fun a => Fin.ext (by
    match a with
    | ⟨0, _⟩ =>
      exact (dot_S63x4096_S4096x63_S4096x4096_0_1_1_0_n_n.lhsIdx_val_of_single rfl (ix2 i o) _).trans
        (contrEquiv1_symm_val dot_S63x4096_S4096x63_S4096x4096_0_1_1_0_n_n 63 rfl rfl r)
    | ⟨1, _⟩ => rfl)

/-- Its right operand index is (o, r). -/
theorem lowrank_rhsIdx (i o : Fin 4096) (r : Fin 63) :
    dot_S63x4096_S4096x63_S4096x4096_0_1_1_0_n_n.rhsIdx (ix2 i o)
      ((contrEquiv1 dot_S63x4096_S4096x63_S4096x4096_0_1_1_0_n_n 63 rfl rfl).symm r) = ix2 o r :=
  funext fun a => Fin.ext (by
    match a with
    | ⟨0, _⟩ => rfl
    | ⟨1, _⟩ =>
      exact (dot_S63x4096_S4096x63_S4096x4096_0_1_1_0_n_n.rhsIdx_val_of_single rfl (ix2 i o) _).trans
        (contrEquiv1_symm_val dot_S63x4096_S4096x63_S4096x4096_0_1_1_0_n_n 63 rfl rfl r))

/-- The low-rank product at entry (i, o): Σ_r L[r, i] · B[o, r]. -/
theorem lowrank_apply (L : FVec Ideal S63x4096 .f32) (B : FVec Ideal S4096x63 .f32) (i o : Fin 4096) :
    Host.dotGeneral dot_S63x4096_S4096x63_S4096x4096_0_1_1_0_n_n none L B (ix2 i o)
      = ∑ r : Fin 63, L (ix2 r i) * B (ix2 o r) := by
  simp only [Host.dotGeneral]
  rw [Ideal.dotGeneral_apply,
    ← Equiv.sum_comp (contrEquiv1 dot_S63x4096_S4096x63_S4096x4096_0_1_1_0_n_n 63 rfl rfl).symm]
  refine Finset.sum_congr rfl fun r _ => ?_
  rw [lowrank_lhsIdx, lowrank_rhsIdx]

/-- The merged weight at entry (i, o). -/
theorem mergedWeight_entry (W : FVec Ideal S4096x4096 .f32) (A : FVec Ideal S63x4096 .f32) (B : FVec Ideal S4096x63 .f32)
    (cb : FVec Ideal S63 .f32) (i o : Fin 4096) :
    at2 (mergedWeight W A B cb) i.val o.val
      = Cert.Spec.wt (fun o i => W (ix2 o i)) (fun r i => A (ix2 r i)) (fun o r => B (ix2 o r)) (fun r => cb (ix1 r)) i o := by
  refine (at2_ix2 _ i o).trans ?_
  unfold mergedWeight Cert.Spec.wt
  show transpose S4096x4096 [1, 0] W transposes_S4096x4096_S4096x4096_1_0 (ix2 i o) + Host.dotGeneral _ none _ B (ix2 i o) = _
  rw [transpose_ix2_apply, lowrank_apply]
  refine congrArg (W (ix2 o i) + ·) (Finset.sum_congr rfl fun r _ => ?_)
  show A (ix2 r i) * broadcastInDim S63x4096 ![0, 1] bcast_S63x1_S63x4096_0_1 (broadcastInDim S63x1 ![0] bcast_S63_S63x1_0 cb) (ix2 r i) * B (ix2 o r) = _
  rw [Cert.HostBroadcasts.col_rows_apply, Cert.HostBroadcasts.col_apply]

end Cert.KerSide

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.Algebra.lean ====
/-
  The algebra behind merging the low-rank branch into the weight.

  With every entry a real number,
      Σ_i x_i·(W_oi + Σ_r (a_ri·c_r)·b_or) + bias_o
        = (Σ_i x_i·W_oi + bias_o) + Σ_r ((Σ_i x_i·a_ri)·c_r)·b_or :
  distribute x_i over the inner sum, exchange the two finite sums, and reassociate the products.  Over the extended
  reals a product does not distribute over a sum when infinities are present, so the identity is proved for real
  numbers first and then carried to the extended reals through the coercion, which commutes with finite sums,
  sums and products of real numbers.

  The second statement is a pure reindexing: a sum over m·n consecutive indices is the sum over m blocks of the sums
  over the n indices of each block.
-/
import proofs.«101486_j86208583566010_2_alg».proof.Proof.Spec
import proofs.«101486_j86208583566010_2_alg».proof.Proof.LibRealEntries
import Mathlib

noncomputable section

namespace Cert.Spec

open Cert.RealEntries

/-- The identity over the real numbers, for arbitrary finite index types:
    Σ_i x_i·(w_i + Σ_r (a_ri·c_r)·b_r) + β = (Σ_i x_i·w_i + β) + Σ_r ((Σ_i x_i·a_ri)·c_r)·b_r. -/
theorem merge_real {ι ρ : Type*} [Fintype ι] [Fintype ρ] (x w : ι → ℝ) (β : ℝ) (a : ρ → ι → ℝ) (c b : ρ → ℝ) :
    (∑ i, x i * (w i + ∑ r, (a r i * c r) * b r)) + β
      = ((∑ i, x i * w i) + β) + ∑ r, ((∑ i, x i * a r i) * c r) * b r := by
  have h : ∑ i, x i * ∑ r, (a r i * c r) * b r = ∑ r, ((∑ i, x i * a r i) * c r) * b r := by
    simp only [Finset.mul_sum, Finset.sum_mul]
    rw [Finset.sum_comm]
    exact Finset.sum_congr rfl fun r _ => Finset.sum_congr rfl fun i _ => by ring
  simp only [mul_add, Finset.sum_add_distrib]
  rw [h]
  ring

/-- The kernel's formula (one product with the merged weight) equals the reference's formula (the base product plus
    the low-rank branch) when every entry is a real number. -/
theorem ker_eq_ref (X : Fin 4 → Fin 2048 → Fin 4096 → EReal) (W : Fin 4096 → Fin 4096 → EReal) (bias : Fin 4096 → EReal)
    (A : Fin 63 → Fin 4096 → EReal) (B : Fin 4096 → Fin 63 → EReal) (cb : Fin 63 → EReal)
    (hX : ∀ b s i, IsR (X b s i)) (hW : ∀ o i, IsR (W o i)) (hbias : ∀ o, IsR (bias o)) (hA : ∀ r i, IsR (A r i))
    (hB : ∀ o r, IsR (B o r)) (hcb : ∀ r, IsR (cb r)) (b : Fin 4) (s : Fin 2048) (o : Fin 4096) :
    kerAt (X b s) W bias A B cb o = refAt X W bias A B cb b s o := by
  choose x hx using hX
  choose w hw using hW
  choose β hβ using hbias
  choose a ha using hA
  choose bb hbb using hB
  choose c hc using hcb
  unfold kerAt refAt wt
  simp only [hx, hw, hβ, ha, hbb, hc, ← EReal.coe_mul, ← EReal.coe_add, ← coe_sum]
  rw [EReal.coe_eq_coe_iff]
  exact merge_real (x b s) (w o) (β o) a c (bb o)

/-- A sum over N = m·n consecutive indices, split into m blocks of n. -/
theorem sum_blocks_gen {M : Type*} [AddCommMonoid M] (m n N : ℕ) (h : m * n = N) (f : Fin N → M)
    (hb : ∀ (k : Fin m) (kk : Fin n), n * k.val + kk.val < N) :
    ∑ k : Fin m, ∑ kk : Fin n, f ⟨n * k.val + kk.val, hb k kk⟩ = ∑ i : Fin N, f i := by
  subst h
  rw [← finProdFinEquiv.sum_comp, Fintype.sum_prod_type]
  refine Finset.sum_congr rfl fun k _ => Finset.sum_congr rfl fun kk _ => ?_
  refine congrArg f (Fin.ext ?_)
  show n * k.val + kk.val = kk.val + n * k.val
  exact Nat.add_comm _ _

/-- The 4096 indices as 8 blocks of 512. -/
theorem sum_blocks (f : Fin 4096 → EReal) :
    ∑ k : Fin 8, ∑ kk : Fin 512, f ⟨512 * k.val + kk.val, by omega⟩ = ∑ i : Fin 4096, f i :=
  sum_blocks_gen 8 512 4096 (by norm_num) f (fun k kk => by omega)

end Cert.Spec

end
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.KerValue.lean ====
/-
  The kernel program's result, entry by entry.

  The result at (b, s, o) is the output array's entry at row b·2048 + s and column o: the eight block products along
  the contraction axis, 512 columns each, summed — together the full product of the input row with column o of the
  merged weight — plus the bias entry.  The combined scale read by the merged weight is an entry of alphas · scalings
  (whichever one the constant table of segment numbers selects), so it is a real number when alphas and scalings are.
-/
import proofs.«101486_j86208583566010_2_alg».proof.Proof.KerFinal
import proofs.«101486_j86208583566010_2_alg».proof.Proof.KerHost
import proofs.«101486_j86208583566010_2_alg».proof.Proof.Algebra
import proofs.«101486_j86208583566010_2_alg».proof.Proof.LibGatherRows
import proofs.«101486_j86208583566010_2_alg».proof.Proof.LibRealEntries

noncomputable section

namespace Cert.KerSide

open Idealize.ShloMosaic Idealize.ShloMosaic.TcCoe Idealize.ShloMosaic.ValueIdx Idealize.SL.Sem Cert.KernelIdeal Cert.KernelIdeal.Gen
open Cert.RealEntries

/-- The kernel program's result as a term of its arguments. -/
def result (X : FVec Ideal S4x2048x4096 .f32) (W : FVec Ideal S4096x4096 .f32) (bias : FVec Ideal S4096 .f32)
    (A : FVec Ideal S63x4096 .f32) (B : FVec Ideal S4096x63 .f32) (a5 a6 : FVec Ideal S6 .f32) : FVec Ideal S4x2048x4096 .f32 :=
  shapeCast S4x2048x4096
    (outArr (shapeCast S8192x4096 X shapeCasts_S4x2048x4096_S8192x4096) (mergedWeight W A B (comb a5 a6))
      (shapeCast S1x4096 bias shapeCasts_S4096_S1x4096))
    shapeCasts_S8192x4096_S4x2048x4096

/-- What the run leaves in the result buffer is that term of the launch contents of the arguments. -/
theorem result_eq (m : (ℓ : Loc nD τ sig) → Buf (Elt Ideal) ℓ) (c : Dev nD) :
    shapeCast S4x2048x4096 (outArr (rowsArr m c) (weightArr m c) (biasArr m c)) shapeCasts_S8192x4096_S4x2048x4096
      = result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) := by
  rw [rowsArr_eq, weightArr_eq, biasArr_eq]
  rfl

/-- The result at (b, s, o): the product of the input row with the merged weight's column o, plus the bias. -/
theorem result_apply (X : FVec Ideal S4x2048x4096 .f32) (W : FVec Ideal S4096x4096 .f32) (bias : FVec Ideal S4096 .f32)
    (A : FVec Ideal S63x4096 .f32) (B : FVec Ideal S4096x63 .f32) (a5 a6 : FVec Ideal S6 .f32)
    (b : Fin 4) (s : Fin 2048) (o : Fin 4096) :
    result X W bias A B a5 a6 (ix3 b s o)
      = Cert.Spec.kerAt (fun i => X (ix3 b s i)) (fun o i => W (ix2 o i)) (fun o => bias (ix1 o)) (fun r i => A (ix2 r i)) (fun o r => B (ix2 o r)) (fun r => comb a5 a6 (ix1 r)) o := by
  have hr : b.val * 2048 + s.val < 8192 := by have := b.isLt; have := s.isLt; omega
  unfold result
  refine (shapeCast_apply _ _ (ix3 b s o) (ix2 ⟨b.val * 2048 + s.val, hr⟩ o) ?_).trans ?_
  · rw [Shape.rowMajor_val_two, Shape.rowMajor_val_three]
    rfl
  rw [outArr_apply]
  unfold Cert.Spec.kerAt
  show (∑ j ∈ Finset.range 8, ∑ k : Fin 512,
      at2 (shapeCast S8192x4096 X shapeCasts_S4x2048x4096_S8192x4096) (b.val * 2048 + s.val) (512 * j + k.val)
        * at2 (mergedWeight W A B (comb a5 a6)) (512 * j + k.val) o.val)
    + at2 (shapeCast S1x4096 bias shapeCasts_S4096_S1x4096) 0 o.val = _
  rw [bias_entry]
  refine congrArg (· + bias (ix1 o)) ?_
  refine Eq.trans ?_ (Cert.Spec.sum_blocks (fun i : Fin 4096 => X (ix3 b s i)
    * Cert.Spec.wt (fun o i => W (ix2 o i)) (fun r i => A (ix2 r i)) (fun o r => B (ix2 o r)) (fun r => comb a5 a6 (ix1 r)) i o))
  rw [Finset.sum_range]
  refine Finset.sum_congr rfl fun j _ => Finset.sum_congr rfl fun k _ => ?_
  have hi : 512 * j.val + k.val < 4096 := by have := j.isLt; have := k.isLt; omega
  exact congrArg₂ (· * ·) (rows_entry X b s ⟨512 * j.val + k.val, hi⟩)
    (mergedWeight_entry W A B (comb a5 a6) ⟨512 * j.val + k.val, hi⟩ o)

/-- The combined scale's entries are real numbers when alphas and scalings are. -/
theorem comb_isR (a5 a6 : FVec Ideal S6 .f32) (h5 : AllReal a5) (h6 : AllReal a6) (r : Fin 63) :
    IsR (comb a5 a6 (ix1 r)) := by
  unfold comb
  rw [Cert.GatherRows.gather_vec_apply (by decide : 0 < 6) gather_S6_S63x1_S63_n_0_n_n_0_1_1 rfl rfl rfl rfl rfl rfl rfl]
  exact (h5 _).mul (h6 _)

end Cert.KerSide

end
-- ==== Proof.RefRun.lean ====
/-
  The reference program's run, read back: its @main is a straight line of 19 host operations, so every weakly
  fair execution terminates with each buffer at the fold of the operations' results over the launch contents.
  The result buffer then holds the operations' composed term `out` of the seven arguments, and the arguments
  are unchanged.
-/
import proofs.«101486_j86208583566010_2_alg».proof.ReferenceIdeal
import Idealize.ShloMosaic.Lib.StableHlo.Run
import Idealize.ShloMosaic.Lib.ValueIdx

noncomputable section

namespace Cert.RefSide

open Cert.ReferenceIdeal Idealize.ShloMosaic Idealize.ShloMosaic.ValueIdx Idealize.SL.Sem
open Idealize.ShloMosaic.TcCoe Idealize.ShloMosaic.StableHlo

variable [Cert.ReferenceIdeal.Facts]
open Cert.ReferenceIdeal.Facts₀ Cert.ReferenceIdeal.Facts

/-- the combined scale vector as the host operations compute it from alphas and scalings -/
def comb (a5 a6 : FVec Ideal S6 .f32) : FVec Ideal S63 .f32 :=
  Host.gather gather_S6_S63x1_S63_n_0_n_n_0_1_1 (mulf a5 a6)
    (broadcastInDim S63x1 ![0] bcast_S63_S63x1_0
      (select (constantI S63 1 0#1)
        (addi (fun i => lit0 (S63.rowMajor i)) (broadcastInDim S63 ![] bcast_S_S63 (constantI S_ 32 6#32)))
        (fun i => lit0 (S63.rowMajor i))))

/-- the reference's result as the composed term of its operations over the seven arguments -/
def out (X : FVec Ideal S4x2048x4096 .f32) (W : FVec Ideal S4096x4096 .f32) (bias : FVec Ideal S4096 .f32)
    (A : FVec Ideal S63x4096 .f32) (B : FVec Ideal S4096x63 .f32) (a5 a6 : FVec Ideal S6 .f32) : FVec Ideal S4x2048x4096 .f32 :=
  addf (addf (Host.dotGeneral dot_S4x2048x4096_S4096x4096_S4x2048x4096_2_1_01_0_n_n none X W)
             (broadcastInDim S4x2048x4096 ![0, 1, 2] bcast_S1x1x4096_S4x2048x4096_0_1_2 (broadcastInDim S1x1x4096 ![2] bcast_S4096_S1x1x4096_2 bias)))
       (Host.dotGeneral dot_S4x2048x63_S4096x63_S4x2048x4096_2_1_01_0_n_n none
          (mulf (Host.dotGeneral dot_S4x2048x4096_S63x4096_S4x2048x63_2_1_01_0_n_n none X A)
                (broadcastInDim S4x2048x63 ![0, 1, 2] bcast_S1x1x63_S4x2048x63_0_1_2 (broadcastInDim S1x1x63 ![2] bcast_S63_S1x1x63_2 (comb a5 a6))))
          B)

section Ops

variable {F : FTy → Type} [FloatOps F]

/-- @main's 19 operations, in order. -/
abbrev ops : List (HloOp τ sig (Elt F)) :=
  [ nullary main_c (fun i => lit0 (S63.rowMajor i)),
    nullary main_c_0 (constantI S63 1 0#1),
    binary main_arg0 main_arg1 main_v0 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v1 (broadcastInDim S1x1x4096 ![2] bcast_S4096_S1x1x4096_2 : (⟨S4096, .f32⟩ : BufTy).Contents (Elt F) → (⟨S1x1x4096, .f32⟩ : BufTy).Contents (Elt F)),
    unary main_v1 main_v2 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v0 main_v2 main_v3 (addf : (⟨S4x2048x4096, .f32⟩ : BufTy).Contents (Elt F) → (⟨S4x2048x4096, .f32⟩ : BufTy).Contents (Elt F) → (⟨S4x2048x4096, .f32⟩ : BufTy).Contents (Elt F)),
    binary main_arg5 main_arg6 main_v4 (mulf : (⟨S6, .f32⟩ : BufTy).Contents (Elt F) → (⟨S6, .f32⟩ : BufTy).Contents (Elt F) → (⟨S6, .f32⟩ : BufTy).Contents (Elt F)),
    nullary main_c_1 (constantI S_ 32 6#32),
    unary main_c_1 main_v5 (broadcastInDim S63 ![] bcast_S_S63 : (⟨S_, .i32⟩ : BufTy).Contents (Elt F) → (⟨S63, .i32⟩ : BufTy).Contents (Elt F)),
    binary main_c main_v5 main_v6 (addi : (⟨S63, .i32⟩ : BufTy).Contents (Elt F) → (⟨S63, .i32⟩ : BufTy).Contents (Elt F) → (⟨S63, .i32⟩ : BufTy).Contents (Elt F)),
    ternary main_c_0 main_v6 main_c main_v7 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    unary main_v7 main_v8 (broadcastInDim S63x1 ![0] bcast_S63_S63x1_0 : (⟨S63, .i32⟩ : BufTy).Contents (Elt F) → (⟨S63x1, .i32⟩ : BufTy).Contents (Elt F)),
    binary main_v4 main_v8 main_v9 ((fun x i => Host.gather gather_S6_S63x1_S63_n_0_n_n_0_1_1 x i) : (⟨S6, .f32⟩ : BufTy).Contents (Elt F) → (⟨S63x1, .i32⟩ : BufTy).Contents (Elt F) → (⟨S63, .f32⟩ : BufTy).Contents (Elt F)),
    binary main_arg0 main_arg3 main_v10 ((fun l r => Host.dotGeneral dot_S4x2048x4096_S63x4096_S4x2048x63_2_1_01_0_n_n none l r) : (⟨S4x2048x4096, .f32⟩ : BufTy).Contents (Elt F) → (⟨S63x4096, .f32⟩ : BufTy).Contents (Elt F) → (⟨S4x2048x63, .f32⟩ : BufTy).Contents (Elt F)),
    unary main_v9 main_v11 (broadcastInDim S1x1x63 ![2] bcast_S63_S1x1x63_2 : (⟨S63, .f32⟩ : BufTy).Contents (Elt F) → (⟨S1x1x63, .f32⟩ : BufTy).Contents (Elt F)),
    unary main_v11 main_v12 (broadcastInDim S4x2048x63 ![0, 1, 2] bcast_S1x1x63_S4x2048x63_0_1_2 : (⟨S1x1x63, .f32⟩ : BufTy).Contents (Elt F) → (⟨S4x2048x63, .f32⟩ : BufTy).Contents (Elt F)),
    binary main_v10 main_v12 main_v13 (mulf : (⟨S4x2048x63, .f32⟩ : BufTy).Contents (Elt F) → (⟨S4x2048x63, .f32⟩ : BufTy).Contents (Elt F) → (⟨S4x2048x63, .f32⟩ : BufTy).Contents (Elt F)),
    binary main_v13 main_arg4 main_v14 ((fun l r => Host.dotGeneral dot_S4x2048x63_S4096x63_S4x2048x4096_2_1_01_0_n_n none l r) : (⟨S4x2048x63, .f32⟩ : BufTy).Contents (Elt F) → (⟨S4096x63, .f32⟩ : BufTy).Contents (Elt F) → (⟨S4x2048x4096, .f32⟩ : BufTy).Contents (Elt F)),
    binary main_v3 main_v14 main_v15 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
   binary_bufs_sub .., nullary_bufs_sub .., unary_bufs_sub .., binary_bufs_sub .., ternary_bufs_sub .., unary_bufs_sub ..,
   binary_bufs_sub .., binary_bufs_sub .., unary_bufs_sub .., unary_bufs_sub .., binary_bufs_sub .., binary_bufs_sub ..,
   binary_bufs_sub ..⟩

end Ops

/-- What the result buffer holds after the 19 operations, from any contents `V`: `out` of the arguments' contents. -/
theorem after_v15 (V : Valuation τ sig (Elt Ideal)) :
    after (ops (F := Ideal)) V (Proc.devRef .tc main_v15)
      = out (V (Proc.devRef .tc main_arg0)) (V (Proc.devRef .tc main_arg1)) (V (Proc.devRef .tc main_arg2))
            (V (Proc.devRef .tc main_arg3)) (V (Proc.devRef .tc main_arg4)) (V (Proc.devRef .tc main_arg5)) (V (Proc.devRef .tc main_arg6)) := by
  unfold out comb
  after_results_simp
  rfl

/-- No operation writes an argument buffer. -/
theorem after_arg0 (V : Valuation τ sig (Elt Ideal)) : after (ops (F := Ideal)) V (Proc.devRef .tc main_arg0) = V (Proc.devRef .tc main_arg0) := by
  after_results_simp
theorem after_arg1 (V : Valuation τ sig (Elt Ideal)) : after (ops (F := Ideal)) V (Proc.devRef .tc main_arg1) = V (Proc.devRef .tc main_arg1) := by
  after_results_simp
theorem after_arg2 (V : Valuation τ sig (Elt Ideal)) : after (ops (F := Ideal)) V (Proc.devRef .tc main_arg2) = V (Proc.devRef .tc main_arg2) := by
  after_results_simp
theorem after_arg3 (V : Valuation τ sig (Elt Ideal)) : after (ops (F := Ideal)) V (Proc.devRef .tc main_arg3) = V (Proc.devRef .tc main_arg3) := by
  after_results_simp
theorem after_arg4 (V : Valuation τ sig (Elt Ideal)) : after (ops (F := Ideal)) V (Proc.devRef .tc main_arg4) = V (Proc.devRef .tc main_arg4) := by
  after_results_simp
theorem after_arg5 (V : Valuation τ sig (Elt Ideal)) : after (ops (F := Ideal)) V (Proc.devRef .tc main_arg5) = V (Proc.devRef .tc main_arg5) := by
  after_results_simp
theorem after_arg6 (V : Valuation τ sig (Elt Ideal)) : after (ops (F := Ideal)) V (Proc.devRef .tc main_arg6) = V (Proc.devRef .tc main_arg6) := by
  after_results_simp

/-- On the one device, from any memory with zero counters: every weakly fair execution of the reference's @main
    terminates with the result buffer at `out` of the seven arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = out (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c main_v15).trans (after_v15 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_seq scopedRefs_eq scopedSems_eq (defs (F := Ideal)) (main (F := Ideal)) (fun _ => ops) main_eq (fun _ => ops_sub) m ρ)

end Cert.RefSide

end
-- ==== Proof.RefValue.lean ====
/-
  The reference's result read at an index.

  With X[b,s,i] the input rows, W[o,i] the base weight, bias[o], A[r,i] and B[o,r] the low-rank factors and cb[r] the
  combined scale, the reference's composed term at (b, s, o) is
      (Σ_i X[b,s,i]·W[o,i] + bias[o]) + Σ_r ((Σ_i X[b,s,i]·A[r,i])·cb[r])·B[o,r].
  Each of its three products contracts the last axis of a rank-3 left operand with the last axis of a rank-2 right
  operand; the bias and the scale reach their rank-3 shapes by two broadcasts each.
-/
import proofs.«101486_j86208583566010_2_alg».proof.Proof.RefRun
import proofs.«101486_j86208583566010_2_alg».proof.Proof.Spec
import Idealize.ShloMosaic.PureOps.Ideal.Laws
import Idealize.ShloMosaic.Lib.ValueIdx
import Idealize.ShloMosaic.Lib.Pipeline.Value

noncomputable section

namespace Cert.RefSide

open Cert.ReferenceIdeal Idealize.ShloMosaic Idealize.ShloMosaic.ValueIdx Idealize.SL.Sem

/-! ## A product of a stack of rows by a transposed matrix, at an entry -/

section Dot
variable {P Q K N : Nat} {φ₁ φ₂ : FTy}

/-- A `dot_general` contracting axis 2 of a [P, Q, K] left operand with axis 1 of an [N, K] right operand, no batch
    axes, read over the extended reals at the entry (p, q, n): the inner product of the left operand's row (p, q) with
    the right operand's row n,
        Σ_{k < K} L[p, q, k] · R[n, k]. -/
theorem dot3_apply
    (D : DotDims ⟨3, ![P, Q, K]⟩ ⟨2, ![N, K]⟩ ⟨3, ![P, Q, N]⟩)
    (w : DotDims.WF ⟨3, ![P, Q, K]⟩ ⟨2, ![N, K]⟩ ⟨3, ![P, Q, N]⟩ [2] [1] [0, 1] [0] [] [])
    (hD : D = ⟨[2], [1], [0, 1], [0], [], [], w⟩)
    (prec : Option ContractPrecision) (L : FVec Ideal ⟨3, ![P, Q, K]⟩ φ₁) (R : FVec Ideal ⟨2, ![N, K]⟩ φ₂)
    (p : Fin P) (q : Fin Q) (n : Fin N) :
    Host.dotGeneral D prec L R (ix3 p q n) = ∑ k : Fin K, L (ix3 p q k) * R (ix2 n k) := by
  subst hD
  show FloatOps.dotGeneral _ prec _ L R (ix3 p q n) = _
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![P, Q, K]⟩ ⟨2, ![N, K]⟩ ⟨3, ![P, Q, N]⟩) K rfl rfl k
  have l3 : (⟨[2], [1], [0, 1], [0], [], [], w⟩ : DotDims ⟨3, ![P, Q, K]⟩ ⟨2, ![N, K]⟩ ⟨3, ![P, Q, N]⟩).lhsIdx (ix3 p q n)
      ((contrEquiv1 _ K rfl rfl).symm k) = ix3 p q k := by
    funext ax; apply Fin.ext
    match ax with
    | ⟨0, _⟩ => rfl
    | ⟨1, _⟩ => rfl
    | ⟨2, _⟩ =>
      exact ((⟨[2], [1], [0, 1], [0], [], [], w⟩ : DotDims ⟨3, ![P, Q, K]⟩ ⟨2, ![N, K]⟩ ⟨3, ![P, Q, N]⟩).lhsIdx_val_of_single
        rfl (ix3 p q n) _).trans c3
  have r3 : (⟨[2], [1], [0, 1], [0], [], [], w⟩ : DotDims ⟨3, ![P, Q, K]⟩ ⟨2, ![N, K]⟩ ⟨3, ![P, Q, N]⟩).rhsIdx (ix3 p q n)
      ((contrEquiv1 _ K rfl rfl).symm k) = ix2 n k := by
    funext ax; apply Fin.ext
    match ax with
    | ⟨0, _⟩ => rfl
    | ⟨1, _⟩ =>
      exact ((⟨[2], [1], [0, 1], [0], [], [], w⟩ : DotDims ⟨3, ![P, Q, K]⟩ ⟨2, ![N, K]⟩ ⟨3, ![P, Q, N]⟩).rhsIdx_val_of_single
        rfl (ix3 p q n) _).trans c3
  rw [l3, r3]

end Dot

/-! ## A vector spread over the rows of a rank-3 array, at an entry -/

/-- A vector [C] viewed as [1, 1, C] and then repeated over [P, Q, C] reads, at (p, q, c), the vector's entry c. -/
theorem row3_apply {α : Type} {P Q C : Nat} (v : (⟨1, ![C]⟩ : Shape).Idx → α)
    (h1 : (⟨1, ![C]⟩ : Shape).BroadcastsInDim ⟨3, ![1, 1, C]⟩ ![2])
    (h2 : (⟨3, ![1, 1, C]⟩ : Shape).BroadcastsInDim ⟨3, ![P, Q, C]⟩ ![0, 1, 2])
    (p : Fin P) (q : Fin Q) (c : Fin C) :
    broadcastInDim ⟨3, ![P, Q, C]⟩ ![0, 1, 2] h2 (broadcastInDim ⟨3, ![1, 1, C]⟩ ![2] h1 v) (ix3 p q c) = v (ix1 c) := by
  refine (broadcastInDim_apply ![0, 1, 2] h2 _ (ix3 p q c) (ix3 (0 : Fin 1) (0 : Fin 1) c) fun ax => ?_).trans ?_
  · match ax with
    | ⟨0, _⟩ => rfl
    | ⟨1, _⟩ => rfl
    | ⟨2, _⟩ =>
      show c.val = if C = 1 then 0 else c.val
      split
      · have := c.isLt; omega
      · rfl
  · refine broadcastInDim_apply ![2] h1 v _ (ix1 c) fun ax => ?_
    match ax with
    | ⟨0, _⟩ =>
      show c.val = if C = 1 then 0 else c.val
      split
      · have := c.isLt; omega
      · rfl

/-! ## The reference's result at (b, s, o) -/

variable [Cert.ReferenceIdeal.Facts]
open Cert.ReferenceIdeal.Facts₀ Cert.ReferenceIdeal.Facts

/-- The reference's composed term at (b, s, o) is the formula `Cert.Spec.refAt` of the arguments' entries, with the
    combined scale vector left as the host operations compute it. -/
theorem out_apply (X : FVec Ideal S4x2048x4096 .f32) (W : FVec Ideal S4096x4096 .f32) (bias : FVec Ideal S4096 .f32)
    (A : FVec Ideal S63x4096 .f32) (B : FVec Ideal S4096x63 .f32) (a5 a6 : FVec Ideal S6 .f32)
    (b : Fin 4) (s : Fin 2048) (o : Fin 4096) :
    out X W bias A B a5 a6 (ix3 b s o)
      = Cert.Spec.refAt (fun b s i => X (ix3 b s i)) (fun o i => W (ix2 o i)) (fun o => bias (ix1 o))
          (fun r i => A (ix2 r i)) (fun o r => B (ix2 o r)) (fun r => comb a5 a6 (ix1 r)) b s o := by
  unfold out Cert.Spec.refAt
  refine (addf_apply _ _ _).trans (congrArg₂ (· + ·) ((addf_apply _ _ _).trans (congrArg₂ (· + ·) ?_ ?_)) ?_)
  · exact dot3_apply _ dot_S4x2048x4096_S4096x4096_S4x2048x4096_2_1_01_0_n_n_wf rfl none X W b s o
  · exact row3_apply bias bcast_S4096_S1x1x4096_2 bcast_S1x1x4096_S4x2048x4096_0_1_2 b s o
  · refine (dot3_apply _ dot_S4x2048x63_S4096x63_S4x2048x4096_2_1_01_0_n_n_wf rfl none _ B b s o).trans
      (Finset.sum_congr rfl fun r _ => ?_)
    refine congrArg (· * B (ix2 o r)) ?_
    refine (mulf_apply _ _ _).trans (congrArg₂ (· * ·) ?_ ?_)
    · exact dot3_apply _ dot_S4x2048x4096_S63x4096_S4x2048x63_2_1_01_0_n_n_wf rfl none X A b s r
    · exact row3_apply (comb a5 a6) bcast_S63_S1x1x63_2 bcast_S1x1x63_S4x2048x63_0_1_2 b s r

end Cert.RefSide

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«101486_j86208583566010_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Finite.lean ====
/-
  The finiteness precondition, read back: every entry of every input is a real number.

  The precondition is the conjunction, over the seven inputs, of all(|x| < +∞).  A conjunction of one-bit words is 1
  exactly when each of them is 1, and all(|x| < +∞) being 1 says that every entry of x is neither of the two
  infinities, that is, a real number.
-/
import proofs.«101486_j86208583566010_2_alg».proof.Pre_finite_inputs
import proofs.«101486_j86208583566010_2_alg».proof.Proof.Gen.Pre_finite_inputs
import proofs.«101486_j86208583566010_2_alg».proof.Proof.LibFiniteInputs

noncomputable section

namespace Cert.Finite

open Cert.RealEntries Idealize.ShloMosaic

/-- The shape without axes has one index. -/
instance subsingleton_scalar_idx : Subsingleton Cert.Pre_finite_inputs.S_.Idx :=
  ⟨fun a b => funext fun d => d.elim0⟩

/-- The precondition being true gives: every entry of each of the seven inputs is a real number. -/
theorem of_pre [Cert.Pre_finite_inputs.Facts]
    (x0 : FVec Ideal Cert.Pre_finite_inputs.S4x2048x4096 .f32) (x1 : FVec Ideal Cert.Pre_finite_inputs.S4096x4096 .f32)
    (x2 : FVec Ideal Cert.Pre_finite_inputs.S4096 .f32) (x3 : FVec Ideal Cert.Pre_finite_inputs.S63x4096 .f32)
    (x4 : FVec Ideal Cert.Pre_finite_inputs.S4096x63 .f32) (x5 x6 : FVec Ideal Cert.Pre_finite_inputs.S6 .f32)
    (h : Cert.Pre_finite_inputs.fn (F := Ideal) x0 x1 x2 x3 x4 x5 x6 = fun _ => 1#1) :
    AllReal x0 ∧ AllReal x1 ∧ AllReal x2 ∧ AllReal x3 ∧ AllReal x4 ∧ AllReal x5 ∧ AllReal x6 := by
  have h0 := congrFun h ValueIdx.ix0
  unfold Cert.Pre_finite_inputs.fn Cert.Pre_finite_inputs.fn_part1 at h0
  dsimp only at h0
  unfold Idealize.ShloMosaic.andi at h0
  simp only [IntOp.andi_eq_one] at h0
  obtain ⟨⟨⟨⟨⟨⟨e0, e1⟩, e2⟩, e3⟩, e4⟩, e5⟩, e6⟩ := h0
  exact ⟨allReal_of_all_finite x0 _ _ _ _ _ e0, allReal_of_all_finite x1 _ _ _ _ _ e1,
    allReal_of_all_finite x2 _ _ _ _ _ e2, allReal_of_all_finite x3 _ _ _ _ _ e3,
    allReal_of_all_finite x4 _ _ _ _ _ e4, allReal_of_all_finite x5 _ _ _ _ _ e5,
    allReal_of_all_finite x6 _ _ _ _ _ e6⟩

end Cert.Finite

end
-- ==== Proof.Claims.lean ====
/-
  The five claims.

  The three frames: the two kernel programs by their generated frame certificates; the reference, a straight line of
  host operations, by its run with the result dropped.  The idealization rewrote nothing, so it preserves trivially.

  The equivalence.  With X the input rows, W and bias the base layer, A and B the low-rank factors and cb the combined
  scale (the same host operations on alphas and scalings in both programs), the kernel program ends at
      Σ_i X[b,s,i]·(W[o,i] + Σ_r (A[r,i]·cb[r])·B[o,r]) + bias[o]
  and the reference at
      (Σ_i X[b,s,i]·W[o,i] + bias[o]) + Σ_r ((Σ_i X[b,s,i]·A[r,i])·cb[r])·B[o,r].
  Every input is finite by the precondition, so every entry involved is a real number, and over the reals the two are
  equal: distribute the product over the merged weight, exchange the two sums, reassociate.
-/
import proofs.«101486_j86208583566010_2_alg».proof.Defs
import proofs.«101486_j86208583566010_2_alg».proof.Proof.Gen.Kernel.Frame
import proofs.«101486_j86208583566010_2_alg».proof.Proof.Gen.ReferenceIdeal
import proofs.«101486_j86208583566010_2_alg».proof.Proof.Gen.Pre_finite_inputs
import proofs.«101486_j86208583566010_2_alg».proof.Proof.KerValue
import proofs.«101486_j86208583566010_2_alg».proof.Proof.RefValue
import proofs.«101486_j86208583566010_2_alg».proof.Proof.Finite
import proofs.«101486_j86208583566010_2_alg».proof.Proof.Algebra

noncomputable section

namespace Cert.Proof.Claims

open Idealize.ShloMosaic Idealize.ShloMosaic.TcCoe Idealize.ShloMosaic.ValueIdx Idealize.SL.Sem
open Cert.RealEntries

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both programs compute the combined scale by the same operations on alphas and scalings. -/
theorem comb_eq (a5 a6 : FVec Ideal Cert.KernelIdeal.S6 .f32) : Cert.RefSide.comb a5 a6 = Cert.KerSide.comb a5 a6 := rfl

theorem algebraic : Cert.algebraic_KernelIdeal_ReferenceIdeal := by
  intro m ρ m' ρ' hpre hagree
  refine ⟨fun c => Cert.KerSide.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KerSide.result_eq m c), (h c).2⟩) (Cert.KerSide.run m ρ)
  · refine (θ_run Cert.ReferenceIdeal.defs _ _).mono (fun _ h c => ⟨(h c).1.trans ?_, (h c).2⟩) (Cert.RefSide.run m' ρ')
    obtain ⟨e0, e1, e2, e3, e4, e5, e6⟩ := hagree c
    rw [e0, e1, e2, e3, e4, e5, e6]
    obtain ⟨r0, r1, r2, r3, r4, r5, r6⟩ := Cert.Finite.of_pre _ _ _ _ _ _ _ (hpre c)
    funext (j : Cert.KernelIdeal.S4x2048x4096.Idx)
    obtain ⟨b, s, o, rfl⟩ : ∃ (b : Fin 4) (s : Fin 2048) (o : Fin 4096), j = ix3 b s o := ⟨j 0, j 1, j 2, eq_ix3 j⟩
    refine (Cert.RefSide.out_apply _ _ _ _ _ _ _ b s o).trans ?_
    refine Eq.trans ?_ (Cert.KerSide.result_apply _ _ _ _ _ _ _ b s o).symm
    rw [comb_eq]
    exact (Cert.Spec.ker_eq_ref _ _ _ _ _ _ (fun b s i => r0 _) (fun o i => r1 _) (fun o => r2 _) (fun r i => r3 _)
      (fun o r => r4 _) (fun r => Cert.KerSide.comb_isR _ _ r5 r6 r) b s o).symm

end Cert.Proof.Claims

end
-- ==== Proof.lean ====
/- The proof of `Cert.Claim`: a fused linear layer with low-rank adapters against its unfused reference.

   The kernel program merges the adapters into the base weight on the host,
       weight[i, o] = W[o, i] + Σ_r (A[r, i]·cb[r])·B[o, r],     cb = (alphas · scalings) gathered per rank row,
   and computes x·weight + bias in one tiled product: a [1024, 1024] accumulator per output block, cleared at the first
   of eight steps along the contraction axis, one [1024, 512] by [512, 1024] block product added per step, the bias row
   added and the block written back at the last step.  The reference computes the base layer and the adapter branch
   separately and adds them.  Over the extended reals, at finite inputs, both are the same real number entry by entry.

   The modules: Spec (the two formulas), Algebra (their equality over the reals; the eight blocks of 512 columns are
   the 4096 columns), Finite (the precondition says every entry is real), KerCases / KerPay / KerAcc / KerBlocks /
   KerHost / KerFinal / KerValue (the kernel program's result, read off its run), RefRun / RefValue (the reference's),
   Claims (the five claims).  The witnesses of the programs' stated facts are the generated instances. -/
import proofs.«101486_j86208583566010_2_alg».proof.Defs
import proofs.«101486_j86208583566010_2_alg».proof.Proof.Gen.Kernel
import proofs.«101486_j86208583566010_2_alg».proof.Proof.Gen.Kernel.Skeleton
import proofs.«101486_j86208583566010_2_alg».proof.Proof.Gen.Kernel.Launch
import proofs.«101486_j86208583566010_2_alg».proof.Proof.Gen.Kernel.Points
import proofs.«101486_j86208583566010_2_alg».proof.Proof.Gen.Kernel.Frame
import proofs.«101486_j86208583566010_2_alg».proof.Proof.Gen.KernelIdeal
import proofs.«101486_j86208583566010_2_alg».proof.Proof.Gen.KernelIdeal.Skeleton
import proofs.«101486_j86208583566010_2_alg».proof.Proof.Gen.KernelIdeal.Launch
import proofs.«101486_j86208583566010_2_alg».proof.Proof.Gen.KernelIdeal.Points
import proofs.«101486_j86208583566010_2_alg».proof.Proof.Gen.KernelIdeal.Frame
import proofs.«101486_j86208583566010_2_alg».proof.Proof.Gen.ReferenceIdeal
import proofs.«101486_j86208583566010_2_alg».proof.Proof.Gen.Pre_finite_inputs
import proofs.«101486_j86208583566010_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
